-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S16x64x256x256 : Shape := ⟨4, ![16, 64, 256, 256]⟩
abbrev S1x16x128x128 : Shape := ⟨4, ![1, 16, 128, 128]⟩
abbrev S1x16x256x256 : Shape := ⟨4, ![1, 16, 256, 256]⟩
abbrev S16x128x128 : Shape := ⟨3, ![16, 128, 128]⟩
abbrev S16x128x128x1 : Shape := ⟨4, ![16, 128, 128, 1]⟩
abbrev S16x128x128x2 : Shape := ⟨4, ![16, 128, 128, 2]⟩
abbrev S16x128x256 : Shape := ⟨3, ![16, 128, 256]⟩
abbrev S16x128x1x256 : Shape := ⟨4, ![16, 128, 1, 256]⟩
abbrev S16x128x2x256 : Shape := ⟨4, ![16, 128, 2, 256]⟩
abbrev S16x256x256 : Shape := ⟨3, ![16, 256, 256]⟩

abbrev nBuf : Space → Nat
  | .hbm => 5
  | .vmem => 10
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x256x256, .f32⟩
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x16x128x128, .f32⟩
  | .local _ .vmem, ⟨5, _⟩ => ⟨S1x16x128x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x16x256x256, .f32⟩
  | .local _ .vmem, ⟨9, _⟩ => ⟨S1x16x256x256, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S16x128x128x1 : S16x128x128.ShapeCasts S16x128x128x1
  concatenates_S16x128x128x1_S16x128x128x1_S16x128x128x2_d3 : Shape.Concatenates [S16x128x128x1, S16x128x128x1] S16x128x128x2 3
  shapeCasts_S16x128x128x2_S16x128x256 : S16x128x128x2.ShapeCasts S16x128x256
  shapeCasts_S16x128x256_S16x128x1x256 : S16x128x256.ShapeCasts S16x128x1x256
  concatenates_S16x128x1x256_S16x128x1x256_S16x128x2x256_d2 : Shape.Concatenates [S16x128x1x256, S16x128x1x256] S16x128x2x256 2
  shapeCasts_S16x128x2x256_S16x256x256 : S16x128x2x256.ShapeCasts S16x256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S16x64x128x128.size a
  hwx0_0 : ∀ i : grid0.Coords, EltTy.bits .f32 = 32 ∨ (Rect.block (s := S16x64x128x128) S1x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x64x128x128.size a
  hwx0_1 : ∀ i : grid0.Coords, EltTy.bits .f32 = 32 ∨ (Rect.block (s := S16x64x128x128) S1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S16x64x128x128.size a
  hwx0_2 : ∀ i : grid0.Coords, EltTy.bits .f32 = 32 ∨ (Rect.block (s := S16x64x128x128) S1x16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x128.size a ≤ S16x64x128x128.size a
  hwx0_3 : ∀ i : grid0.Coords, EltTy.bits .f32 = 32 ∨ (Rect.block (s := S16x64x128x128) S1x16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x256.size a ≤ S16x64x256x256.size a
  hwx0_4 : ∀ i : grid0.Coords, EltTy.bits .f32 = 32 ∨ (Rect.block (s := S16x64x256x256) S1x16x256x256.size (cc0_transform_4 i) (hinb0_4 i)).WholeWords (EltTy.packing .f32)

variable [Facts₀]

abbrev win0_0 : Pipeline.Window sig grid0 :=
  Pipeline.Window.ofSpec (Memref.whole main_arg0) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x128x1x2 : Shape := ⟨6, ![16, 64, 128, 128, 1, 2]⟩
abbrev S16x64x128x128x2x2 : Shape := ⟨6, ![16, 64, 128, 128, 2, 2]⟩
abbrev S16x64x128x2x128x2 : Shape := ⟨6, ![16, 64, 128, 2, 128, 2]⟩
abbrev S16x64x256x256 : Shape := ⟨4, ![16, 64, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S_, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S_, .f32⟩
  | .hbm, ⟨18, _⟩ => ⟨S16x64x128x128, .f32⟩
  | .hbm, ⟨19, _⟩ => ⟨S16x64x128x128, .f32⟩
  | .hbm, ⟨20, _⟩ => ⟨S16x64x128x128, .f32⟩
  | .hbm, ⟨21, _⟩ => ⟨S_, .f32⟩
  | .hbm, ⟨22, _⟩ => ⟨S16x64x128x128, .f32⟩
  | .hbm, ⟨23, _⟩ => ⟨S16x64x128x128, .f32⟩
  | .hbm, ⟨24, _⟩ => ⟨S16x64x128x128x1, .f32⟩
  | .hbm, ⟨25, _⟩ => ⟨S16x64x128x128x1, .f32⟩
  | .hbm, ⟨26, _⟩ => ⟨S16x64x128x128x2, .f32⟩
  | .hbm, ⟨27, _⟩ => ⟨S16x64x128x128x1, .f32⟩
  | .hbm, ⟨28, _⟩ => ⟨S16x64x128x128x1, .f32⟩
  | .hbm, ⟨29, _⟩ => ⟨S16x64x128x128x2, .f32⟩
  | .hbm, ⟨30, _⟩ => ⟨S16x64x128x128x1x2, .f32⟩
  | .hbm, ⟨31, _⟩ => ⟨S16x64x128x128x1x2, .f32⟩
  | .hbm, ⟨32, _⟩ => ⟨S16x64x128x128x2x2, .f32⟩
  | .hbm, ⟨33, _⟩ => ⟨S16x64x128x2x128x2, .f32⟩
  | .hbm, ⟨34, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  bcast_S16x64x128x128x2_S16x64x128x128x1x2_0_1_2_3_5 : S16x64x128x128x2.BroadcastsInDim S16x64x128x128x1x2 (![0, 1, 2, 3, 5] : Fin 5 → Fin S16x64x128x128x1x2.rank)
  concatenates_S16x64x128x128x1x2_S16x64x128x128x1x2_S16x64x128x128x2x2_d4 : Shape.Concatenates [S16x64x128x128x1x2, S16x64x128x128x1x2] S16x64x128x128x2x2 4
  transposes_S16x64x128x128x2x2_S16x64x128x2x128x2_0_1_2_4_3_5 : S16x64x128x128x2x2.Transposes [0, 1, 2, 4, 3, 5] S16x64x128x2x128x2
  shapeCasts_S16x64x128x2x128x2_S16x64x256x256 : S16x64x128x2x128x2.ShapeCasts S16x64x256x256

variable [Facts₀]

class Facts : Prop extends Facts₀ where

variable [Facts]
-- ==== Proof.LibInterleave.lean ====
/-
  Two equal-shaped pieces joined along an axis on which each has extent one, read at an index; and the two
  interleavings built from such a join by a pair of shape casts: along the last axis (entry `x` of the result is
  entry `x / 2` of the first piece when `x` is even and of the second when `x` is odd) and along the middle axis
  of a rank-3 array (row `y` of the result is row `y / 2` of the first or of the second piece by the parity of `y`).
  All of it for any element type and any extents.
-/
import Idealize.ShloMosaic.Lib.Pipeline.Value
import Idealize.ShloMosaic.Lib.ValueIdx

namespace Idealize.ShloMosaic.Interleave

open Idealize.ShloMosaic Idealize.ShloMosaic.ValueIdx

variable {α : Type}

/-- Two pieces of ONE shape `s` whose extent along axis `a` is 1, joined along `a`: at an index `j` the result is
    the first piece where `j`'s coordinate on `a` is 0 and the second piece otherwise (the coordinate is then 1), each
    read at the index `i` that agrees with `j` off the axis (on the axis `i` can only be 0). -/
theorem concatenate_unit_pair_apply {t s : Shape} (a : Fin t.rank) (x₁ x₂ : s.Idx → α)
    (h : Shape.Concatenates [s, s] t a) (j : t.Idx) (hr : s.rank = t.rank)
    (hs : s.size (a.cast hr.symm) = 1) (i : s.Idx)
    (hi : ∀ b : Fin s.rank, b.cast hr ≠ a → (i b).val = (j (b.cast hr)).val) :
    concatenate t a [⟨s, x₁⟩, ⟨s, x₂⟩] h j = if (j a).val = 0 then x₁ i else x₂ i := by
  have hi0 : (i (a.cast hr.symm)).val = 0 := by have := (i (a.cast hr.symm)).isLt; omega
  by_cases h0 : (j a).val = 0
  · rw [if_pos h0]
    refine concatenate_pair_apply_left a x₁ x₂ h j hr i fun b => ?_
    by_cases hb : b.cast hr = a
    · have eb : b = a.cast hr.symm := Fin.ext (by have := congrArg Fin.val hb; simpa using this)
      rw [eb, hi0]
      exact h0.symm
    · exact hi b hb
  · rw [if_neg h0]
    refine concatenate_pair_apply_right a x₁ x₂ h j hr hr i hi ?_
    have e := h.2.2
    simp only [List.map, List.sum_cons, List.sum_nil, dif_pos hr] at e
    have hlt := (j a).isLt
    rw [hi0, hs]
    omega

/-- INTERLEAVING ALONG THE LAST AXIS. `P` and `Q` of shape [a, b, c], each given a trailing unit axis, joined along it
    into [a, b, c, 2] and flattened to [a, b, 2c]: entry `x` of a row is entry `x / 2` of `P`'s row when `x` is even and
    of `Q`'s row when `x` is odd. -/
theorem interleave_last_apply {a b c c2 : ℕ} (hc : c2 = c * 2) (P Q : (⟨3, ![a, b, c]⟩ : Shape).Idx → α)
    (h1 : (⟨3, ![a, b, c]⟩ : Shape).ShapeCasts ⟨4, ![a, b, c, 1]⟩)
    (hcat : Shape.Concatenates [⟨4, ![a, b, c, 1]⟩, ⟨4, ![a, b, c, 1]⟩] ⟨4, ![a, b, c, 2]⟩ 3)
    (h2 : (⟨4, ![a, b, c, 2]⟩ : Shape).ShapeCasts ⟨3, ![a, b, c2]⟩)
    (p : Fin a) (q : Fin b) (x : Fin c2) :
    shapeCast ⟨3, ![a, b, c2]⟩ (concatenate ⟨4, ![a, b, c, 2]⟩ 3
        [⟨⟨4, ![a, b, c, 1]⟩, shapeCast ⟨4, ![a, b, c, 1]⟩ P h1⟩, ⟨⟨4, ![a, b, c, 1]⟩, shapeCast ⟨4, ![a, b, c, 1]⟩ Q h1⟩] hcat) h2 (ix3 p q x)
      = if x.val % 2 = 0 then P (ix3 p q ⟨x.val / 2, by omega⟩) else Q (ix3 p q ⟨x.val / 2, by omega⟩) := by
  have hk : x.val / 2 < c := by omega
  have hd : x.val % 2 < 2 := by omega
  -- the flattening reads (p, q, x) at (p, q, x / 2, x % 2): the same row-major position
  refine (shapeCast_apply _ h2 (ix3 p q x) (ix4 p q ⟨x.val / 2, hk⟩ ⟨x.val % 2, hd⟩) ?_).trans ?_
  · rw [Shape.rowMajor_val_four, Shape.rowMajor_val_three]
    show ((p.val * b + q.val) * c + x.val / 2) * 2 + x.val % 2 = (p.val * b + q.val) * c2 + x.val
    subst hc
    rw [← Nat.mul_assoc]
    omega
  -- the join picks the piece by the last coordinate
  refine (concatenate_unit_pair_apply (t := ⟨4, ![a, b, c, 2]⟩) (s := ⟨4, ![a, b, c, 1]⟩) 3 _ _ hcat _ rfl rfl (ix4 p q ⟨x.val / 2, hk⟩ (0 : Fin 1)) ?_).trans ?_
  · intro bb hb
    match bb, hb with
    | ⟨0, _⟩, _ => rfl
    | ⟨1, _⟩, _ => rfl
    | ⟨2, _⟩, _ => rfl
    | ⟨3, _⟩, hb => exact absurd rfl hb
  -- and the trailing unit axis is no change of position
  have eP : ∀ R : (⟨3, ![a, b, c]⟩ : Shape).Idx → α,
      shapeCast ⟨4, ![a, b, c, 1]⟩ R h1 (ix4 p q ⟨x.val / 2, hk⟩ (0 : Fin 1)) = R (ix3 p q ⟨x.val / 2, hk⟩) := fun R =>
    shapeCast_apply R h1 _ _ (by
      rw [Shape.rowMajor_val_three, Shape.rowMajor_val_four]
      show (p.val * b + q.val) * c + x.val / 2 = ((p.val * b + q.val) * c + x.val / 2) * 1 + 0
      omega)
  show (if x.val % 2 = 0 then _ else _) = _
  rw [eP P, eP Q]

/-- INTERLEAVING ROWS. `R` and `S` of shape [a, b, c], each given a unit axis before the last, joined along it into
    [a, b, 2, c] and flattened to [a, 2b, c]: row `y` is row `y / 2` of `R` when `y` is even and of `S` when `y` is odd. -/
theorem interleave_rows_apply {a b b2 c : ℕ} (hb : b2 = b * 2) (R S : (⟨3, ![a, b, c]⟩ : Shape).Idx → α)
    (h1 : (⟨3, ![a, b, c]⟩ : Shape).ShapeCasts ⟨4, ![a, b, 1, c]⟩)
    (hcat : Shape.Concatenates [⟨4, ![a, b, 1, c]⟩, ⟨4, ![a, b, 1, c]⟩] ⟨4, ![a, b, 2, c]⟩ 2)
    (h2 : (⟨4, ![a, b, 2, c]⟩ : Shape).ShapeCasts ⟨3, ![a, b2, c]⟩)
    (p : Fin a) (y : Fin b2) (x : Fin c) :
    shapeCast ⟨3, ![a, b2, c]⟩ (concatenate ⟨4, ![a, b, 2, c]⟩ 2
        [⟨⟨4, ![a, b, 1, c]⟩, shapeCast ⟨4, ![a, b, 1, c]⟩ R h1⟩, ⟨⟨4, ![a, b, 1, c]⟩, shapeCast ⟨4, ![a, b, 1, c]⟩ S h1⟩] hcat) h2 (ix3 p y x)
      = if y.val % 2 = 0 then R (ix3 p ⟨y.val / 2, by omega⟩ x) else S (ix3 p ⟨y.val / 2, by omega⟩ x) := by
  have hk : y.val / 2 < b := by omega
  have hd : y.val % 2 < 2 := by omega
  refine (shapeCast_apply _ h2 (ix3 p y x) (ix4 p ⟨y.val / 2, hk⟩ ⟨y.val % 2, hd⟩ x) ?_).trans ?_
  · rw [Shape.rowMajor_val_four, Shape.rowMajor_val_three]
    show ((p.val * b + y.val / 2) * 2 + y.val % 2) * c + x.val = (p.val * b2 + y.val) * c + x.val
    have e : (p.val * b + y.val / 2) * 2 + y.val % 2 = p.val * b2 + y.val := by
      subst hb
      rw [← Nat.mul_assoc]
      omega
    rw [e]
  refine (concatenate_unit_pair_apply (t := ⟨4, ![a, b, 2, c]⟩) (s := ⟨4, ![a, b, 1, c]⟩) 2 _ _ hcat _ rfl rfl (ix4 p ⟨y.val / 2, hk⟩ (0 : Fin 1) x) ?_).trans ?_
  · intro bb hb'
    match bb, hb' with
    | ⟨0, _⟩, _ => rfl
    | ⟨1, _⟩, _ => rfl
    | ⟨2, _⟩, hb' => exact absurd rfl hb'
    | ⟨3, _⟩, _ => rfl
  have eR : ∀ T : (⟨3, ![a, b, c]⟩ : Shape).Idx → α,
      shapeCast ⟨4, ![a, b, 1, c]⟩ T h1 (ix4 p ⟨y.val / 2, hk⟩ (0 : Fin 1) x) = T (ix3 p ⟨y.val / 2, hk⟩ x) := fun T =>
    shapeCast_apply T h1 _ _ (by
      rw [Shape.rowMajor_val_three, Shape.rowMajor_val_four]
      show (p.val * b + y.val / 2) * c + x.val = ((p.val * b + y.val / 2) * 1 + 0) * c + x.val
      rw [Nat.mul_one, Nat.add_zero])
  show (if y.val % 2 = 0 then _ else _) = _
  rw [eR R, eR S]

end Idealize.ShloMosaic.Interleave
-- ==== Proof.HaarSpec.lean ====
/-
  The inverse 2-d Haar step as ONE function of four coefficient arrays, index by index.

  From four arrays LL, LH, HL, HH of shape [n0, n1, 128, 128] it builds an array of shape [n0, n1, 256, 256]: the
  entry at (b, c, y, x) depends only on the four coefficients at (b, c, y / 2, x / 2), and which signed combination
  of them it is depends on the parities of y and x —

      y even, x even :  1/4 · ((LL + LH) + (HL + HH))          y even, x odd :  1/4 · ((LL + LH) − (HL + HH))
      y odd,  x even :  1/4 · ((LL − LH) + (HL − HH))          y odd,  x odd :  1/4 · ((LL − LH) − (HL − HH))

  — so every 2 × 2 block of the result is the four combinations of one coefficient quadruple. The sums are written
  with the float operations of whichever instance they are read at, grouped exactly as above, and the factor 1/4 is
  the f32 word 0x3E800000.
-/
import Idealize.ShloMosaic.PureOps.Ideal
import Idealize.ShloMosaic.Lib.ValueIdx

noncomputable section

namespace Cert.Haar

open Idealize.ShloMosaic Idealize.ShloMosaic.ValueIdx

variable {F : FTy → Type} [FloatOps F]

/-- The coordinate of the coefficient an output coordinate reads: its half. -/
def half (i : Fin 256) : Fin 128 := ⟨i.val / 2, by omega⟩

theorem half_val (i : Fin 256) : (half i).val = i.val / 2 := rfl

/-- The place of an output coordinate inside its 2 × 2 block: its parity. -/
def parity (i : Fin 256) : Fin 2 := ⟨i.val % 2, by omega⟩

theorem parity_val (i : Fin 256) : (parity i).val = i.val % 2 := rfl

/-- The entry of a 2 × 2 block at row parity `y % 2` and column parity `x % 2`, from the block's four coefficients. -/
def combine (y x : ℕ) (ll lh hl hh : F .f32) : F .f32 :=
  if y % 2 = 0 then
    (if x % 2 = 0 then
      FloatOps.mulf (FloatOps.ofBits .f32 0x3E800000#32) (FloatOps.addf (FloatOps.addf ll lh) (FloatOps.addf hl hh))
    else
      FloatOps.mulf (FloatOps.ofBits .f32 0x3E800000#32) (FloatOps.subf (FloatOps.addf ll lh) (FloatOps.addf hl hh)))
  else
    (if x % 2 = 0 then
      FloatOps.mulf (FloatOps.ofBits .f32 0x3E800000#32) (FloatOps.addf (FloatOps.subf ll lh) (FloatOps.subf hl hh))
    else
      FloatOps.mulf (FloatOps.ofBits .f32 0x3E800000#32) (FloatOps.subf (FloatOps.subf ll lh) (FloatOps.subf hl hh)))

/-- Equal parities and equal coefficients give equal entries. -/
theorem combine_congr {y y' x x' : ℕ} {ll ll' lh lh' hl hl' hh hh' : F .f32} (hy : y = y') (hx : x = x')
    (e0 : ll = ll') (e1 : lh = lh') (e2 : hl = hl') (e3 : hh = hh') :
    combine y x ll lh hl hh = combine y' x' ll' lh' hl' hh' := by
  subst hy hx e0 e1 e2 e3
  rfl

/-- The inverse Haar step: entry (b, c, y, x) is the (y % 2, x % 2) combination of the coefficients at (b, c, y / 2, x / 2). -/
def inverse {n0 n1 : ℕ} (LL LH HL HH : (⟨4, ![n0, n1, 128, 128]⟩ : Shape).Idx → F .f32) :
    (⟨4, ![n0, n1, 256, 256]⟩ : Shape).Idx → F .f32 := fun j =>
  combine (j 2).val (j 3).val
    (LL (ix4 (j 0) (j 1) (half (j 2)) (half (j 3)))) (LH (ix4 (j 0) (j 1) (half (j 2)) (half (j 3))))
    (HL (ix4 (j 0) (j 1) (half (j 2)) (half (j 3)))) (HH (ix4 (j 0) (j 1) (half (j 2)) (half (j 3))))

/-- The step at an index given by its coordinates. -/
theorem inverse_apply {n0 n1 : ℕ} (LL LH HL HH : (⟨4, ![n0, n1, 128, 128]⟩ : Shape).Idx → F .f32)
    (b : Fin n0) (c : Fin n1) (y x : Fin 256) :
    inverse LL LH HL HH (ix4 b c y x)
      = combine y.val x.val (LL (ix4 b c (half y) (half x))) (LH (ix4 b c (half y) (half x)))
          (HL (ix4 b c (half y) (half x))) (HH (ix4 b c (half y) (half x))) := rfl

end Cert.Haar

end
-- ==== Proof.KernelValue.lean ====
/-
  The kernel computes the inverse Haar step. At each point of its 16 × 4 grid it loads one [1, 16, 128, 128] block of
  each coefficient array, forms the four signed combinations, interleaves the two of a row parity along the lanes
  (columns 2j and 2j + 1), interleaves the two resulting arrays along the rows (rows 2i and 2i + 1), and stores the
  [1, 16, 256, 256] block. So the block stored is `Cert.Haar.inverse` of the four blocks loaded; a block of the
  inverse step of the whole arrays only reads the matching blocks of the coefficients (halving a coordinate inside
  the block is halving it in the array, the blocks starting at even — zero — offsets on the last two axes), so each
  point writes the matching block of the inverse step of the whole arrays; and the 64 blocks tile the result.
-/
import proofs.«156968_j83356725281342_2_alg».proof.Proof.Gen.KernelIdeal.Value
import proofs.«156968_j83356725281342_2_alg».proof.Proof.LibInterleave
import proofs.«156968_j83356725281342_2_alg».proof.Proof.HaarSpec
import Idealize.ShloMosaic.Lib.ValueLayout

noncomputable section

namespace Cert.KernelIdeal.HaarValue

open Cert.KernelIdeal Cert.KernelIdeal.Gen Cert.Haar
open Idealize.ShloMosaic Idealize.ShloMosaic.TcCoe Idealize.SL.Sem
open Idealize.ShloMosaic.ValueIdx Idealize.ShloMosaic.Interleave
open Idealize.ShloMosaic.Pipeline (Dat)

variable {F : FTy → Type} [FloatOps F]

/-! ## The body: the block stored is the inverse step of the blocks loaded -/

theorem body_eq (x0 x1 x2 x3 : Vec F S1x16x128x128 .f32) :
    k0_pay1 (k0_pay2 x0 x1 x2 x3) = Cert.Haar.inverse (n0 := 1) (n1 := 16) x0 x1 x2 x3 := by
  funext j
  obtain ⟨u, c, y, x, rfl⟩ : ∃ (u : Fin 1) (c : Fin 16) (y x : Fin 256), j = ix4 u c y x :=
    ⟨j 0, j 1, j 2, j 3, eq_ix4 j⟩
  obtain rfl : u = 0 := Subsingleton.elim _ _
  rw [Cert.Haar.inverse_apply]
  have hy : y.val / 2 < 128 := by omega
  have hx : x.val / 2 < 128 := by omega
  unfold k0_pay1 k0_pay2
  dsimp only
  -- the leading unit axis of the stored block
  refine (shapeCast_abc_1abc_apply _ _ 0 c y x).trans ?_
  -- rows 2i and 2i + 1 come from the two row-parity arrays
  refine (interleave_rows_apply (a := 16) (b := 128) (b2 := 256) (c := 256) rfl _ _ _ _ _ c y x).trans ?_
  -- columns 2j and 2j + 1 of each come from its two combinations
  refine (if_congr Iff.rfl
    (interleave_last_apply (a := 16) (b := 128) (c := 128) (c2 := 256) rfl _ _ _ _ _ c ⟨y.val / 2, hy⟩ x)
    (interleave_last_apply (a := 16) (b := 128) (c := 128) (c2 := 256) rfl _ _ _ _ _ c ⟨y.val / 2, hy⟩ x)).trans ?_
  -- the combinations are pointwise in the loaded blocks, whose leading unit axis is dropped
  have e0 := shapeCast_1abc_abc_apply x0 shapeCasts_S1x16x128x128_S16x128x128 c ⟨y.val / 2, hy⟩ ⟨x.val / 2, hx⟩
  have e1 := shapeCast_1abc_abc_apply x1 shapeCasts_S1x16x128x128_S16x128x128 c ⟨y.val / 2, hy⟩ ⟨x.val / 2, hx⟩
  have e2 := shapeCast_1abc_abc_apply x2 shapeCasts_S1x16x128x128_S16x128x128 c ⟨y.val / 2, hy⟩ ⟨x.val / 2, hx⟩
  have e3 := shapeCast_1abc_abc_apply x3 shapeCasts_S1x16x128x128_S16x128x128 c ⟨y.val / 2, hy⟩ ⟨x.val / 2, hx⟩
  simp only [mulf, addf, subf, broadcast]
  rw [e0, e1, e2, e3]
  rfl

/-! ## From blocks to the array -/

variable (m : (ℓ : Loc nD τ sig) → Buf (Elt F) ℓ) (ρ : Dev nD → PrngReg)

theorem zero_offsets : (![0, 0, 0, 0] : Fin 4 → Nat) = fun _ => 0 := funext fun a => by fin_cases a <;> rfl

/-- The printed index maps, decided over the grid: every window's block index is (grid row, grid column, 0, 0). -/
theorem index_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = win0_4.index t (1 : Fin 4)
    ∧ win0_3.index t (2 : Fin 4) = 0 ∧ win0_3.index t (3 : Fin 4) = 0
    ∧ win0_4.index t (2 : Fin 4) = 0 ∧ win0_4.index t (3 : Fin 4) = 0 :=
  (by decide +kernel : ∀ t : Fin grid0.N, _)

/-- Every (batch, channel-block) pair is some grid point's output block. -/
theorem index_onto : ∀ (q0 : Fin 16) (q1 : Fin 4), ∃ t : Fin cfg0.N, win0_4.index t = ![q0.val, q1.val, 0, 0] :=
  (by decide +kernel : ∀ (q0 : Fin 16) (q1 : Fin 4), ∃ t : Fin grid0.N, win0_4.index t = ![q0.val, q1.val, 0, 0])

/-- WHAT POINT `t` WRITES BACK is block `t` of the inverse step of the coefficient arrays as the region finds them. -/
theorem flushed_eq (c : Dev nD) (t : Fin cfg0.N) :
    (dats m 0 c).flushed 4 t = ((cfg0.win 4).blk t).view.read (Elt F)
      (Cert.Haar.inverse (n0 := 16) (n1 := 64) (V m c main_arg0) (V m c main_arg1) (V m c main_arg2) (V m c main_arg3)) := by
  rw [Cert.KernelIdeal.Value.flushed4]
  unfold out0_4
  rw [View.canon_unit_zero zero_offsets]
  simp only [View.ld_unit_zero (S := S1x16x128x128) zero_offsets]
  rw [body_eq]
  obtain ⟨a00, a01, a02, a03, a10, a11, a12, a13, a20, a21, a22, a23, a30, a31, a32, a33, o2, o3⟩ := index_facts t
  funext y
  show Cert.Haar.combine (y 2).val (y 3).val
      (V m c main_arg0 (((cfg0.win 0).blk t).view.emb (ix4 (y 0) (y 1) (half (y 2)) (half (y 3)))))
      (V m c main_arg1 (((cfg0.win 1).blk t).view.emb (ix4 (y 0) (y 1) (half (y 2)) (half (y 3)))))
      (V m c main_arg2 (((cfg0.win 2).blk t).view.emb (ix4 (y 0) (y 1) (half (y 2)) (half (y 3)))))
      (V m c main_arg3 (((cfg0.win 3).blk t).view.emb (ix4 (y 0) (y 1) (half (y 2)) (half (y 3)))))
    = Cert.Haar.combine ((((cfg0.win 4).blk t).view.emb y) 2).val ((((cfg0.win 4).blk t).view.emb y) 3).val
      (V m c main_arg0 (ix4 ((((cfg0.win 4).blk t).view.emb y) 0) ((((cfg0.win 4).blk t).view.emb y) 1) (half ((((cfg0.win 4).blk t).view.emb y) 2)) (half ((((cfg0.win 4).blk t).view.emb y) 3))))
      (V m c main_arg1 (ix4 ((((cfg0.win 4).blk t).view.emb y) 0) ((((cfg0.win 4).blk t).view.emb y) 1) (half ((((cfg0.win 4).blk t).view.emb y) 2)) (half ((((cfg0.win 4).blk t).view.emb y) 3))))
      (V m c main_arg2 (ix4 ((((cfg0.win 4).blk t).view.emb y) 0) ((((cfg0.win 4).blk t).view.emb y) 1) (half ((((cfg0.win 4).blk t).view.emb y) 2)) (half ((((cfg0.win 4).blk t).view.emb y) 3))))
      (V m c main_arg3 (ix4 ((((cfg0.win 4).blk t).view.emb y) 0) ((((cfg0.win 4).blk t).view.emb y) 1) (half ((((cfg0.win 4).blk t).view.emb y) 2)) (half ((((cfg0.win 4).blk t).view.emb y) 3))))
  have p2 : (y 2).val = ((((cfg0.win 4).blk t).view.emb y) 2).val := by
    show (y 2).val = win0_4.index t (2 : Fin 4) * 256 + 1 * (y 2).val
    omega
  have p3 : (y 3).val = ((((cfg0.win 4).blk t).view.emb y) 3).val := by
    show (y 3).val = win0_4.index t (3 : Fin 4) * 256 + 1 * (y 3).val
    omega
  have k0 : ((cfg0.win 0).blk t).view.emb (ix4 (y 0) (y 1) (half (y 2)) (half (y 3)))
      = ix4 ((((cfg0.win 4).blk t).view.emb y) 0) ((((cfg0.win 4).blk t).view.emb y) 1) (half ((((cfg0.win 4).blk t).view.emb y) 2)) (half ((((cfg0.win 4).blk t).view.emb y) 3)) := by
    funext a; apply Fin.ext
    match a with
    | ⟨0, _⟩ => show win0_0.index t (0 : Fin 4) * 1 + 1 * (y 0).val = win0_4.index t (0 : Fin 4) * 1 + 1 * (y 0).val; omega
    | ⟨1, _⟩ => show win0_0.index t (1 : Fin 4) * 16 + 1 * (y 1).val = win0_4.index t (1 : Fin 4) * 16 + 1 * (y 1).val; omega
    | ⟨2, _⟩ => show win0_0.index t (2 : Fin 4) * 128 + 1 * ((y 2).val / 2) = (win0_4.index t (2 : Fin 4) * 256 + 1 * (y 2).val) / 2; omega
    | ⟨3, _⟩ => show win0_0.index t (3 : Fin 4) * 128 + 1 * ((y 3).val / 2) = (win0_4.index t (3 : Fin 4) * 256 + 1 * (y 3).val) / 2; omega
  have k1 : ((cfg0.win 1).blk t).view.emb (ix4 (y 0) (y 1) (half (y 2)) (half (y 3)))
      = ix4 ((((cfg0.win 4).blk t).view.emb y) 0) ((((cfg0.win 4).blk t).view.emb y) 1) (half ((((cfg0.win 4).blk t).view.emb y) 2)) (half ((((cfg0.win 4).blk t).view.emb y) 3)) := by
    funext a; apply Fin.ext
    match a with
    | ⟨0, _⟩ => show win0_1.index t (0 : Fin 4) * 1 + 1 * (y 0).val = win0_4.index t (0 : Fin 4) * 1 + 1 * (y 0).val; omega
    | ⟨1, _⟩ => show win0_1.index t (1 : Fin 4) * 16 + 1 * (y 1).val = win0_4.index t (1 : Fin 4) * 16 + 1 * (y 1).val; omega
    | ⟨2, _⟩ => show win0_1.index t (2 : Fin 4) * 128 + 1 * ((y 2).val / 2) = (win0_4.index t (2 : Fin 4) * 256 + 1 * (y 2).val) / 2; omega
    | ⟨3, _⟩ => show win0_1.index t (3 : Fin 4) * 128 + 1 * ((y 3).val / 2) = (win0_4.index t (3 : Fin 4) * 256 + 1 * (y 3).val) / 2; omega
  have k2 : ((cfg0.win 2).blk t).view.emb (ix4 (y 0) (y 1) (half (y 2)) (half (y 3)))
      = ix4 ((((cfg0.win 4).blk t).view.emb y) 0) ((((cfg0.win 4).blk t).view.emb y) 1) (half ((((cfg0.win 4).blk t).view.emb y) 2)) (half ((((cfg0.win 4).blk t).view.emb y) 3)) := by
    funext a; apply Fin.ext
    match a with
    | ⟨0, _⟩ => show win0_2.index t (0 : Fin 4) * 1 + 1 * (y 0).val = win0_4.index t (0 : Fin 4) * 1 + 1 * (y 0).val; omega
    | ⟨1, _⟩ => show win0_2.index t (1 : Fin 4) * 16 + 1 * (y 1).val = win0_4.index t (1 : Fin 4) * 16 + 1 * (y 1).val; omega
    | ⟨2, _⟩ => show win0_2.index t (2 : Fin 4) * 128 + 1 * ((y 2).val / 2) = (win0_4.index t (2 : Fin 4) * 256 + 1 * (y 2).val) / 2; omega
    | ⟨3, _⟩ => show win0_2.index t (3 : Fin 4) * 128 + 1 * ((y 3).val / 2) = (win0_4.index t (3 : Fin 4) * 256 + 1 * (y 3).val) / 2; omega
  have k3 : ((cfg0.win 3).blk t).view.emb (ix4 (y 0) (y 1) (half (y 2)) (half (y 3)))
      = ix4 ((((cfg0.win 4).blk t).view.emb y) 0) ((((cfg0.win 4).blk t).view.emb y) 1) (half ((((cfg0.win 4).blk t).view.emb y) 2)) (half ((((cfg0.win 4).blk t).view.emb y) 3)) := by
    funext a; apply Fin.ext
    match a with
    | ⟨0, _⟩ => show win0_3.index t (0 : Fin 4) * 1 + 1 * (y 0).val = win0_4.index t (0 : Fin 4) * 1 + 1 * (y 0).val; omega
    | ⟨1, _⟩ => show win0_3.index t (1 : Fin 4) * 16 + 1 * (y 1).val = win0_4.index t (1 : Fin 4) * 16 + 1 * (y 1).val; omega
    | ⟨2, _⟩ => show win0_3.index t (2 : Fin 4) * 128 + 1 * ((y 2).val / 2) = (win0_4.index t (2 : Fin 4) * 256 + 1 * (y 2).val) / 2; omega
    | ⟨3, _⟩ => show win0_3.index t (3 : Fin 4) * 128 + 1 * ((y 3).val / 2) = (win0_4.index t (3 : Fin 4) * 256 + 1 * (y 3).val) / 2; omega
  exact Cert.Haar.combine_congr p2 p3 (congrArg _ k0) (congrArg _ k1) (congrArg _ k2) (congrArg _ k3)

/-- An index of the result is in point `t`'s block iff each coordinate is in the block's range on its axis. -/
theorem mem_block (t : Fin cfg0.N) (i : S16x64x256x256.Idx) :
    i ∈ ((cfg0.win 4).blk t).view.set ↔ ∀ a : Fin 4, win0_4.index t a * S1x16x256x256.size a ≤ (i a).val
      ∧ (i a).val < win0_4.index t a * S1x16x256x256.size a + S1x16x256x256.size a := by
  show i ∈ ((View.whole main_v0).slice (win0_4.rect t)).set ↔ _
  rw [View.set_slice_whole, Rect.mem_set_unit]
  exact Iff.rfl

/-- The 64 output blocks tile the result: the index (b, c, y, x) lies in the block of batch `b` and channel block `c / 16`. -/
theorem covered (i : S16x64x256x256.Idx) :
    ∃ t : Fin cfg0.N, (cfg0.win 4).flush t = true ∧ i ∈ ((cfg0.win 4).blk t).view.set := by
  have h0 : (i 0).val < 16 := (i 0).isLt
  have h1 : (i 1).val < 64 := (i 1).isLt
  have h2 : (i 2).val < 256 := (i 2).isLt
  have h3 : (i 3).val < 256 := (i 3).isLt
  obtain ⟨t, ht⟩ := index_onto ⟨(i 0).val, h0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-- THE RESULT ARRAY after the run is the inverse step of the coefficient arrays. -/
theorem final (c : Dev nD) :
    (dats m 0 c).arrAt 4 cfg0.N
      = Cert.Haar.inverse (n0 := 16) (n1 := 64) (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) covered

/-- The kernel's run: the result is the inverse step of the arguments, which end unchanged. -/
theorem run : θ_run defs (onTc (τ := τ) (main (F := F))) ⟨m, fun _ => 0, ρ⟩ fun r => ∀ c : Dev nD,
      r.2.mem ((c : Thread nD τ).loc main_v0)
        = Cert.Haar.inverse (n0 := 16) (n1 := 64) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.HaarValue

end
-- ==== Proof.RefValue.lean ====
/-
  The reference computes the inverse Haar step. It forms the four signed combinations of the coefficient arrays
  (each of shape [16, 64, 128, 128]), stacks the two of a row parity on a new last axis, stacks those two stacks on
  a new axis before it — an array indexed (b, c, i, j, row parity, column parity) —, moves the row parity next to
  the row coordinate i, and flattens (i, row parity) to the output row 2i + parity and (j, column parity) to the
  output column 2j + parity. Read at an output index (b, c, y, x) from the outside in, that is the combination
  chosen by (y % 2, x % 2) of the four coefficients at (b, c, y / 2, x / 2): `Cert.Haar.inverse`.
-/
import proofs.«156968_j83356725281342_2_alg».proof.Proof.Gen.ReferenceIdeal.Read
import proofs.«156968_j83356725281342_2_alg».proof.Proof.LibInterleave
import proofs.«156968_j83356725281342_2_alg».proof.Proof.HaarSpec
import Idealize.ShloMosaic.Lib.ValueIdxRank6

noncomputable section

namespace Cert.ReferenceIdeal.RefValue

open Cert.ReferenceIdeal Cert.ReferenceIdeal.Read Cert.Haar
open Idealize.ShloMosaic Idealize.ShloMosaic.ValueIdx Idealize.ShloMosaic.Interleave

variable {F : FTy → Type} [FloatOps F]
variable (x0 x1 x2 x3 : (⟨S16x64x128x128, .f32⟩ : BufTy).Contents (Elt F))

/-! ## The four combinations, each with its trailing unit axis -/

theorem sumSum_at (b : Fin 16) (c : Fin 64) (i j : Fin 128) (u : Fin 1) :
    val_main_v16 (F := F) x0 x1 x2 x3 (ix5 b c i j u)
      = FloatOps.mulf (FloatOps.ofBits .f32 0x3E800000#32)
          (FloatOps.addf (FloatOps.addf (x0 (ix4 b c i j)) (x1 (ix4 b c i j))) (FloatOps.addf (x2 (ix4 b c i j)) (x3 (ix4 b c i j)))) := by
  rw [val_main_v16_apply]
  have e : idx_main_v16 (ix5 b c i j u) = ix4 b c i j := funext fun a => match a with
    | ⟨0, _⟩ => rfl | ⟨1, _⟩ => rfl | ⟨2, _⟩ => rfl | ⟨3, _⟩ => rfl
  rw [e]
  rfl

theorem sumDiff_at (b : Fin 16) (c : Fin 64) (i j : Fin 128) (u : Fin 1) :
    val_main_v17 (F := F) x0 x1 x2 x3 (ix5 b c i j u)
      = FloatOps.mulf (FloatOps.ofBits .f32 0x3E800000#32)
          (FloatOps.subf (FloatOps.addf (x0 (ix4 b c i j)) (x1 (ix4 b c i j))) (FloatOps.addf (x2 (ix4 b c i j)) (x3 (ix4 b c i j)))) := by
  rw [val_main_v17_apply]
  have e : idx_main_v17 (ix5 b c i j u) = ix4 b c i j := funext fun a => match a with
    | ⟨0, _⟩ => rfl | ⟨1, _⟩ => rfl | ⟨2, _⟩ => rfl | ⟨3, _⟩ => rfl
  rw [e]
  rfl

theorem diffSum_at (b : Fin 16) (c : Fin 64) (i j : Fin 128) (u : Fin 1) :
    val_main_v19 (F := F) x0 x1 x2 x3 (ix5 b c i j u)
      = FloatOps.mulf (FloatOps.ofBits .f32 0x3E800000#32)
          (FloatOps.addf (FloatOps.subf (x0 (ix4 b c i j)) (x1 (ix4 b c i j))) (FloatOps.subf (x2 (ix4 b c i j)) (x3 (ix4 b c i j)))) := by
  rw [val_main_v19_apply]
  have e : idx_main_v19 (ix5 b c i j u) = ix4 b c i j := funext fun a => match a with
    | ⟨0, _⟩ => rfl | ⟨1, _⟩ => rfl | ⟨2, _⟩ => rfl | ⟨3, _⟩ => rfl
  rw [e]
  rfl

theorem diffDiff_at (b : Fin 16) (c : Fin 64) (i j : Fin 128) (u : Fin 1) :
    val_main_v20 (F := F) x0 x1 x2 x3 (ix5 b c i j u)
      = FloatOps.mulf (FloatOps.ofBits .f32 0x3E800000#32)
          (FloatOps.subf (FloatOps.subf (x0 (ix4 b c i j)) (x1 (ix4 b c i j))) (FloatOps.subf (x2 (ix4 b c i j)) (x3 (ix4 b c i j)))) := by
  rw [val_main_v20_apply]
  have e : idx_main_v20 (ix5 b c i j u) = ix4 b c i j := funext fun a => match a with
    | ⟨0, _⟩ => rfl | ⟨1, _⟩ => rfl | ⟨2, _⟩ => rfl | ⟨3, _⟩ => rfl
  rw [e]
  rfl

/-! ## The stack over the column parity -/

/-- The rows of even output rows: at column parity `d` the sum-sum or the sum-difference combination. -/
theorem top_at (b : Fin 16) (c : Fin 64) (i j : Fin 128) (d : Fin 2) :
    val_main_v18 (F := F) x0 x1 x2 x3 (ix5 b c i j d)
      = if d.val = 0 then val_main_v16 (F := F) x0 x1 x2 x3 (ix5 b c i j (0 : Fin 1))
        else val_main_v17 (F := F) x0 x1 x2 x3 (ix5 b c i j (0 : Fin 1)) := by
  unfold val_main_v18
  refine concatenate_unit_pair_apply (t := S16x64x128x128x2) (s := S16x64x128x128x1) 4 _ _ _ (ix5 b c i j d) rfl rfl
    (ix5 b c i j (0 : Fin 1)) ?_
  intro bb hb
  match bb, hb with
  | ⟨0, _⟩, _ => rfl
  | ⟨1, _⟩, _ => rfl
  | ⟨2, _⟩, _ => rfl
  | ⟨3, _⟩, _ => rfl
  | ⟨4, _⟩, hb => exact absurd rfl hb

/-- The rows of odd output rows: at column parity `d` the difference-sum or the difference-difference combination. -/
theorem bottom_at (b : Fin 16) (c : Fin 64) (i j : Fin 128) (d : Fin 2) :
    val_main_v21 (F := F) x0 x1 x2 x3 (ix5 b c i j d)
      = if d.val = 0 then val_main_v19 (F := F) x0 x1 x2 x3 (ix5 b c i j (0 : Fin 1))
        else val_main_v20 (F := F) x0 x1 x2 x3 (ix5 b c i j (0 : Fin 1)) := by
  unfold val_main_v21
  refine concatenate_unit_pair_apply (t := S16x64x128x128x2) (s := S16x64x128x128x1) 4 _ _ _ (ix5 b c i j d) rfl rfl
    (ix5 b c i j (0 : Fin 1)) ?_
  intro bb hb
  match bb, hb with
  | ⟨0, _⟩, _ => rfl
  | ⟨1, _⟩, _ => rfl
  | ⟨2, _⟩, _ => rfl
  | ⟨3, _⟩, _ => rfl
  | ⟨4, _⟩, hb => exact absurd rfl hb

/-! ## The stack over the row parity, its transpose and the flattening -/

theorem topRow_at (b : Fin 16) (c : Fin 64) (i j : Fin 128) (u : Fin 1) (d : Fin 2) :
    val_main_v22 (F := F) x0 x1 x2 x3 (ix6 b c i j u d) = val_main_v18 (F := F) x0 x1 x2 x3 (ix5 b c i j d) := by
  rw [val_main_v22_apply]
  have e : idx_main_v22 (ix6 b c i j u d) = ix5 b c i j d := funext fun a => match a with
    | ⟨0, _⟩ => rfl | ⟨1, _⟩ => rfl | ⟨2, _⟩ => rfl | ⟨3, _⟩ => rfl | ⟨4, _⟩ => rfl
  rw [e]

theorem bottomRow_at (b : Fin 16) (c : Fin 64) (i j : Fin 128) (u : Fin 1) (d : Fin 2) :
    val_main_v23 (F := F) x0 x1 x2 x3 (ix6 b c i j u d) = val_main_v21 (F := F) x0 x1 x2 x3 (ix5 b c i j d) := by
  rw [val_main_v23_apply]
  have e : idx_main_v23 (ix6 b c i j u d) = ix5 b c i j d := funext fun a => match a with
    | ⟨0, _⟩ => rfl | ⟨1, _⟩ => rfl | ⟨2, _⟩ => rfl | ⟨3, _⟩ => rfl | ⟨4, _⟩ => rfl
  rw [e]

/-- The 2 × 2 blocks: at row parity `e` the top or the bottom row. -/
theorem block_at (b : Fin 16) (c : Fin 64) (i j : Fin 128) (e d : Fin 2) :
    val_main_v24 (F := F) x0 x1 x2 x3 (ix6 b c i j e d)
      = if e.val = 0 then val_main_v22 (F := F) x0 x1 x2 x3 (ix6 b c i j (0 : Fin 1) d)
        else val_main_v23 (F := F) x0 x1 x2 x3 (ix6 b c i j (0 : Fin 1) d) := by
  unfold val_main_v24
  refine concatenate_unit_pair_apply (t := S16x64x128x128x2x2) (s := S16x64x128x128x1x2) 4 _ _ _ (ix6 b c i j e d) rfl rfl
    (ix6 b c i j (0 : Fin 1) d) ?_
  intro bb hb
  match bb, hb with
  | ⟨0, _⟩, _ => rfl
  | ⟨1, _⟩, _ => rfl
  | ⟨2, _⟩, _ => rfl
  | ⟨3, _⟩, _ => rfl
  | ⟨4, _⟩, hb => exact absurd rfl hb
  | ⟨5, _⟩, _ => rfl

/-- The row parity moved next to the row coordinate. -/
theorem moved_at (b : Fin 16) (c : Fin 64) (i : Fin 128) (e : Fin 2) (j : Fin 128) (d : Fin 2) :
    val_main_v25 (F := F) x0 x1 x2 x3 (ix6 b c i e j d) = val_main_v24 (F := F) x0 x1 x2 x3 (ix6 b c i j e d) := by
  rw [val_main_v25_apply]
  have e' : idx_main_v25 (ix6 b c i e j d) = ix6 b c i j e d := funext fun a => match a with
    | ⟨0, _⟩ => rfl | ⟨1, _⟩ => rfl | ⟨2, _⟩ => rfl | ⟨3, _⟩ => rfl | ⟨4, _⟩ => rfl | ⟨5, _⟩ => rfl
  rw [e']

/-- The flattening: output row `y` is (row `y / 2`, parity `y % 2`), output column `x` is (column `x / 2`, parity `x % 2`). -/
theorem flat_at (b : Fin 16) (c : Fin 64) (y x : Fin 256) :
    val_main_v26 (F := F) x0 x1 x2 x3 (ix4 b c y x)
      = val_main_v25 (F := F) x0 x1 x2 x3 (ix6 b c (half y) (parity y) (half x) (parity x)) := by
  unfold val_main_v26
  refine shapeCast_apply _ _ (ix4 b c y x) (ix6 b c (half y) (parity y) (half x) (parity x)) ?_
  rw [Shape.rowMajor_val_six, Shape.rowMajor_val_four]
  show ((((b.val * 64 + c.val) * 128 + y.val / 2) * 2 + y.val % 2) * 128 + x.val / 2) * 2 + x.val % 2
    = ((b.val * 64 + c.val) * 256 + y.val) * 256 + x.val
  omega

/-! ## The reference's result is the inverse Haar step -/

theorem result_eq : val_main_v26 (F := F) x0 x1 x2 x3 = Cert.Haar.inverse (n0 := 16) (n1 := 64) x0 x1 x2 x3 := by
  funext j
  obtain ⟨b, c, y, x, rfl⟩ : ∃ (b : Fin 16) (c : Fin 64) (y x : Fin 256), j = ix4 b c y x :=
    ⟨j 0, j 1, j 2, j 3, eq_ix4 j⟩
  rw [Cert.Haar.inverse_apply, flat_at, moved_at, block_at, topRow_at, bottomRow_at, top_at, bottom_at,
    sumSum_at, sumDiff_at, diffSum_at, diffDiff_at]
  rfl

end Cert.ReferenceIdeal.RefValue

end
-- ==== Proof.lean ====
/-
  The inverse 2-d Haar step, kernel against reference, over the extended reals.

  Both programs take four coefficient arrays LL, LH, HL, HH of shape [16, 64, 128, 128] and build the array of shape
  [16, 64, 256, 256] whose 2 × 2 block at (2i, 2j) holds the four combinations 1/4 · ((LL ± LH) ± (HL ± HH)) of the
  coefficients at (i, j) (`Cert.Haar.inverse`, Proof/HaarSpec.lean). They group the sums the same way and use the
  same word for 1/4, so no law of arithmetic is needed: the two differ only in how they lay the combinations out.
  The kernel works block by block over a 16 × 4 grid and interleaves lanes, then rows, inside each block
  (Proof/KernelValue.lean); the reference stacks the combinations on two new axes, transposes and flattens
  (Proof/RefValue.lean). Each is shown equal to the one specification, index by index, at any float instance; the
  claim reads that at the extended reals. The precondition (finite inputs) is not used: the equality holds for
  every input.

  The three frames are the generated frame proofs (the reference's is its run with the result forgotten), and the
  idealization rewrote nothing, so `preserves` is trivial.
-/
import proofs.«156968_j83356725281342_2_alg».proof.Defs
import proofs.«156968_j83356725281342_2_alg».proof.Proof.Gen.Kernel
import proofs.«156968_j83356725281342_2_alg».proof.Proof.Gen.Kernel.Skeleton
import proofs.«156968_j83356725281342_2_alg».proof.Proof.Gen.Kernel.Launch
import proofs.«156968_j83356725281342_2_alg».proof.Proof.Gen.Kernel.Points
import proofs.«156968_j83356725281342_2_alg».proof.Proof.Gen.Kernel.Frame
import proofs.«156968_j83356725281342_2_alg».proof.Proof.Gen.KernelIdeal
import proofs.«156968_j83356725281342_2_alg».proof.Proof.Gen.KernelIdeal.Skeleton
import proofs.«156968_j83356725281342_2_alg».proof.Proof.Gen.KernelIdeal.Launch
import proofs.«156968_j83356725281342_2_alg».proof.Proof.Gen.KernelIdeal.Points
import proofs.«156968_j83356725281342_2_alg».proof.Proof.Gen.KernelIdeal.Frame
import proofs.«156968_j83356725281342_2_alg».proof.Proof.Gen.ReferenceIdeal
import proofs.«156968_j83356725281342_2_alg».proof.Proof.Gen.Pre_finite_inputs
import proofs.«156968_j83356725281342_2_alg».proof.Proof.Gen.KernelIdeal.Value
import proofs.«156968_j83356725281342_2_alg».proof.Proof.Gen.ReferenceIdeal.Run
import proofs.«156968_j83356725281342_2_alg».proof.Proof.Gen.ReferenceIdeal.Read
import proofs.«156968_j83356725281342_2_alg».proof.Proof.KernelValue
import proofs.«156968_j83356725281342_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both results are the inverse Haar step of the (agreeing) arguments. -/
theorem algebraic : Cert.algebraic_KernelIdeal_ReferenceIdeal := by
  intro m ρ m' ρ' _ hagree
  refine ⟨_, Cert.KernelIdeal.HaarValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
